-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S14855x1024 : Shape := ⟨2, ![14855, 1024]⟩
abbrev S14855 : Shape := ⟨1, ![14855]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S14855x1024 : S_.BroadcastsInDim S14855x1024 (![] : Fin 0 → Fin S14855x1024.rank)
  reducesTo_S14855x1024_S_d0_1 : S14855x1024.ReducesTo [0, 1] S_
  bcast_S_S14855 : S_.BroadcastsInDim S14855 (![] : Fin 0 → Fin S14855.rank)
  reducesTo_S14855_S_d0 : S14855.ReducesTo [0] S_

variable [Facts]

def fn {F : FTy → Type} [FloatOps F] (main_arg0 : FVec F S8192x1024 .f32) (main_arg1 : IVec S8192x512 32) (main_arg2 : FVec F S14855x1024 .f32) (main_arg3 : FVec F S14855 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S14855x1024 .f32 := Host.absf main_arg2
  let main_cst_0 : FVec F S_ .f32 := constant S_ .f32 0x7F800000#32
  let main_v5 : FVec F S14855x1024 .f32 := broadcastInDim S14855x1024 ![] bcast_S_S14855x1024 main_cst_0
  let main_v6 : IVec S14855x1024 1 := cmpf .olt main_v4 main_v5
  let main_c_1 : IVec S_ 1 := constantI S_ 1 1#1
  let main_v7 : IVec S_ 1 := (fun x v => Host.reduce IntOp.andi x v reducesTo_S14855x1024_S_d0_1 h_S_) main_v6 main_c_1
  let main_v8 : IVec S_ 1 := andi main_v3 main_v7
  let main_v9 : FVec F S14855 .f32 := Host.absf main_arg3
  let main_cst_2 : FVec F S_ .f32 := constant S_ .f32 0x7F800000#32
  let main_v10 : FVec F S14855 .f32 := broadcastInDim S14855 ![] bcast_S_S14855 main_cst_2
  let main_v11 : IVec S14855 1 := cmpf .olt main_v9 main_v10
  let main_c_3 : IVec S_ 1 := constantI S_ 1 1#1
  let main_v12 : IVec S_ 1 := (fun x v => Host.reduce IntOp.andi x v reducesTo_S14855_S_d0 h_S_) main_v11 main_c_3
  let main_v13 : IVec S_ 1 := andi main_v8 main_v12
  main_v13
-- ==== Kernel.lean ====
abbrev S8192x1024 : Shape := ⟨2, ![8192, 1024]⟩
abbrev S8192x512 : Shape := ⟨2, ![8192, 512]⟩
abbrev S14855x1024 : Shape := ⟨2, ![14855, 1024]⟩
abbrev S14855 : Shape := ⟨1, ![14855]⟩
abbrev S8192 : Shape := ⟨1, ![8192]⟩
abbrev S8192x1 : Shape := ⟨2, ![8192, 1]⟩
abbrev S_ : Shape := ⟨0, ![]⟩
abbrev S8192x14855 : Shape := ⟨2, ![8192, 14855]⟩
abbrev S8192x512x1 : Shape := ⟨3, ![8192, 512, 1]⟩
abbrev S8192x512x2 : Shape := ⟨3, ![8192, 512, 2]⟩
abbrev S8192x15360 : Shape := ⟨2, ![8192, 15360]⟩
abbrev S15360x1024 : Shape := ⟨2, ![15360, 1024]⟩
abbrev S15360 : Shape := ⟨1, ![15360]⟩
abbrev S1x15360 : Shape := ⟨2, ![1, 15360]⟩
abbrev S1024x1024 : Shape := ⟨2, ![1024, 1024]⟩
abbrev S1x1024 : Shape := ⟨2, ![1, 1024]⟩

abbrev nBuf : Space → Nat
  | .hbm => 43
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .i32⟩
  | .hbm, ⟨2, _⟩ => ⟨S14855x1024, .f32⟩
  | .hbm, ⟨3, _⟩ => ⟨S14855, .f32⟩
  | .hbm, ⟨4, _⟩ => ⟨S8192, .i32⟩
  | .hbm, ⟨5, _⟩ => ⟨S8192x1, .i32⟩
  | .hbm, ⟨6, _⟩ => ⟨S_, .f32⟩
  | .hbm, ⟨7, _⟩ => ⟨S8192x14855, .f32⟩
  | .hbm, ⟨8, _⟩ => ⟨S_, .i32⟩
  | .hbm, ⟨9, _⟩ => ⟨S8192x1, .i32⟩
  | .hbm, ⟨10, _⟩ => ⟨S8192x1, .i1⟩
  | .hbm, ⟨11, _⟩ => ⟨S_, .i32⟩
  | .hbm, ⟨12, _⟩ => ⟨S8192x1, .i32⟩
  | .hbm, ⟨13, _⟩ => ⟨S8192x1, .i32⟩
  | .hbm, ⟨14, _⟩ => ⟨S8192x1, .i32⟩
  | .hbm, ⟨15, _⟩ => ⟨S_, .i32⟩
  | .hbm, ⟨16, _⟩ => ⟨S8192x512, .i32⟩
  | .hbm, ⟨17, _⟩ => ⟨S8192x512, .i1⟩
  | .hbm, ⟨18, _⟩ => ⟨S_, .i32⟩
  | .hbm, ⟨19, _⟩ => ⟨S8192x512, .i32⟩
  | .hbm, ⟨20, _⟩ => ⟨S8192x512, .i32⟩
  | .hbm, ⟨21, _⟩ => ⟨S8192x512, .i32⟩
  | .hbm, ⟨22, _⟩ => ⟨S8192x512, .i32⟩
  | .hbm, ⟨23, _⟩ => ⟨S8192x512x1, .i32⟩
  | .hbm, ⟨24, _⟩ => ⟨S8192x512x1, .i32⟩
  | .hbm, ⟨25, _⟩ => ⟨S8192x512x2, .i32⟩
  | .hbm, ⟨26, _⟩ => ⟨S_, .f32⟩
  | .hbm, ⟨27, _⟩ => ⟨S8192x512, .f32⟩
  | .hbm, ⟨28, _⟩ => ⟨S8192x14855, .f32⟩
  | .hbm, ⟨29, _⟩ => ⟨S_, .f32⟩
  | .hbm, ⟨30, _⟩ => ⟨S_, .f32⟩
  | .hbm, ⟨31, _⟩ => ⟨S8192x15360, .f32⟩
  | .hbm, ⟨32, _⟩ => ⟨S_, .i32⟩
  | .hbm, ⟨33, _⟩ => ⟨S_, .f32⟩
  | .hbm, ⟨34, _⟩ => ⟨S15360x1024, .f32⟩
  | .hbm, ⟨35, _⟩ => ⟨S_, .i32⟩
  | .hbm, ⟨36, _⟩ => ⟨S_, .f32⟩
  | .hbm, ⟨37, _⟩ => ⟨S15360, .f32⟩
  | .hbm, ⟨38, _⟩ => ⟨S1x15360, .f32⟩
  | .hbm, ⟨39, _⟩ => ⟨S8192x1024, .bf16⟩
  | .hbm, ⟨40, _⟩ => ⟨S15360x1024, .bf16⟩
  | .hbm, ⟨41, _⟩ => ⟨S8192x15360, .f32⟩
  | .hbm, ⟨42, _⟩ => ⟨S8192x14855, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_v0 : Ref sig .tc := ⟨.hbm, 30, rfl⟩
abbrev main_v19 : Ref sig .tc := ⟨.hbm, 31, rfl⟩
abbrev main_c_5 : Ref sig .tc := ⟨.hbm, 32, rfl⟩
abbrev main_call1_v0 : Ref sig .tc := ⟨.hbm, 33, rfl⟩
abbrev main_v20 : Ref sig .tc := ⟨.hbm, 34, rfl⟩
abbrev main_c_6 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![15, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S_S8192x14855 : S_.BroadcastsInDim S8192x14855 (![] : Fin 0 → Fin S8192x14855.rank)
  bcast_S_S8192x1 : S_.BroadcastsInDim S8192x1 (![] : Fin 0 → Fin S8192x1.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  pads_S8192x14855_S8192x15360_000_05050 : S8192x14855.Pads (![0, 0] : Fin 2 → Nat) ![0, 505] ![0, 0] S8192x15360
  h_S_ : 0 < S_.numel
  pads_S14855x1024_S15360x1024_05050_000 : S14855x1024.Pads (![0, 0] : Fin 2 → Nat) ![505, 0] ![0, 0] S15360x1024
  pads_S14855_S15360_05050 : S14855.Pads (![0] : Fin 1 → Nat) ![505] ![0] S15360
  shapeCasts_S15360_S1x15360 : S15360.ShapeCasts S1x15360
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x15360_S8192x14855_0_0 : S8192x15360.Slices ![0, 0] S8192x14855
  scatter_S8192x14855_S8192x512x2_S8192x512_n_01_01_2_wf : ScatterDims.WF S8192x14855 S8192x512x2 S8192x512 [] [0, 1] [0, 1] 2
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S15360x1024.size a
  hwx0_1 : ∀ i : grid0.Coords, EltTy.bits .bf16 = 32 ∨ (Rect.block (s := S15360x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x15360.size a
  hwx0_2 : ∀ i : grid0.Coords, EltTy.bits .f32 = 32 ∨ (Rect.block (s := S1x15360) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x15360.size a
  hwx0_3 : ∀ i : grid0.Coords, EltTy.bits .f32 = 32 ∨ (Rect.block (s := S8192x15360) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x15360.size a
  hwx0_4 : ∀ i : grid0.Coords, EltTy.bits .f32 = 32 ∨ (Rect.block (s := S8192x15360) S1024x1024.size (cc0_transform_4 i) (hinb0_4 i)).WholeWords (EltTy.packing .f32)

variable [Facts₀]

def scatter_S8192x14855_S8192x512x2_S8192x512_n_01_01_2 : ScatterDims S8192x14855 S8192x512x2 S8192x512 where
  updateWindowDims := []
  insertedWindowDims := [0, 1]
  scatterDimsToOperandDims := [0, 1]
  indexVectorDim := 2
  wf := scatter_S8192x14855_S8192x512x2_S8192x512_n_01_01_2_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v23) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x512 : Shape := ⟨2, ![8192, 512]⟩
abbrev S14855x1024 : Shape := ⟨2, ![14855, 1024]⟩
abbrev S14855 : Shape := ⟨1, ![14855]⟩
abbrev S8192x14855 : Shape := ⟨2, ![8192, 14855]⟩
abbrev S1x14855 : Shape := ⟨2, ![1, 14855]⟩
abbrev S8192 : Shape := ⟨1, ![8192]⟩
abbrev S8192x1 : Shape := ⟨2, ![8192, 1]⟩
abbrev S_ : Shape := ⟨0, ![]⟩
abbrev S8192x512x1 : Shape := ⟨3, ![8192, 512, 1]⟩
abbrev S8192x512x2 : Shape := ⟨3, ![8192, 512, 2]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .i32⟩
  | .hbm, ⟨2, _⟩ => ⟨S14855x1024, .f32⟩
  | .hbm, ⟨3, _⟩ => ⟨S14855, .f32⟩
  | .hbm, ⟨4, _⟩ => ⟨S8192x14855, .f32⟩
  | .hbm, ⟨5, _⟩ => ⟨S1x14855, .f32⟩
  | .hbm, ⟨6, _⟩ => ⟨S8192x14855, .f32⟩
  | .hbm, ⟨7, _⟩ => ⟨S8192x14855, .f32⟩
  | .hbm, ⟨8, _⟩ => ⟨S8192, .i32⟩
  | .hbm, ⟨9, _⟩ => ⟨S8192x1, .i32⟩
  | .hbm, ⟨10, _⟩ => ⟨S_, .f32⟩
  | .hbm, ⟨11, _⟩ => ⟨S8192x14855, .f32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S_, .i32⟩
  | .hbm, ⟨16, _⟩ => ⟨S8192x1, .i32⟩
  | .hbm, ⟨17, _⟩ => ⟨S8192x1, .i32⟩
  | .hbm, ⟨18, _⟩ => ⟨S8192x1, .i32⟩
  | .hbm, ⟨19, _⟩ => ⟨S_, .i32⟩
  | .hbm, ⟨20, _⟩ => ⟨S8192x512, .i32⟩
  | .hbm, ⟨21, _⟩ => ⟨S8192x512, .i1⟩
  | .hbm, ⟨22, _⟩ => ⟨S_, .i32⟩
  | .hbm, ⟨23, _⟩ => ⟨S8192x512, .i32⟩
  | .hbm, ⟨24, _⟩ => ⟨S8192x512, .i32⟩
  | .hbm, ⟨25, _⟩ => ⟨S8192x512, .i32⟩
  | .hbm, ⟨26, _⟩ => ⟨S8192x512, .i32⟩
  | .hbm, ⟨27, _⟩ => ⟨S8192x512x1, .i32⟩
  | .hbm, ⟨28, _⟩ => ⟨S8192x512x1, .i32⟩
  | .hbm, ⟨29, _⟩ => ⟨S8192x512x2, .i32⟩
  | .hbm, ⟨30, _⟩ => ⟨S_, .f32⟩
  | .hbm, ⟨31, _⟩ => ⟨S8192x512, .f32⟩
  | .hbm, ⟨32, _⟩ => ⟨S8192x14855, .f32⟩
  | .hbm, ⟨33, _⟩ => ⟨S8192x14855, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S14855_S1x14855_1 : S14855.BroadcastsInDim S1x14855 (![1] : Fin 1 → Fin S1x14855.rank)
  bcast_S1x14855_S8192x14855_0_1 : S1x14855.BroadcastsInDim S8192x14855 (![0, 1] : Fin 2 → Fin S8192x14855.rank)
  bcast_S8192_S8192x1_0 : S8192.BroadcastsInDim S8192x1 (![0] : Fin 1 → Fin S8192x1.rank)
  bcast_S_S8192x14855 : S_.BroadcastsInDim S8192x14855 (![] : Fin 0 → Fin S8192x14855.rank)
  bcast_S_S8192x1 : S_.BroadcastsInDim S8192x1 (![] : Fin 0 → Fin S8192x1.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  dot_S8192x1024_S14855x1024_S8192x14855_1_1_0_0_n_n_wf : DotDims.WF S8192x1024 S14855x1024 S8192x14855 [1] [1] [0] [0] [] []
  scatter_S8192x14855_S8192x512x2_S8192x512_n_01_01_2_wf : ScatterDims.WF S8192x14855 S8192x512x2 S8192x512 [] [0, 1] [0, 1] 2

variable [Facts₀]

def dot_S8192x1024_S14855x1024_S8192x14855_1_1_0_0_n_n : DotDims S8192x1024 S14855x1024 S8192x14855 where
  lhsContracting := [1]
  rhsContracting := [1]
  lhsNonContracting := [0]
  rhsNonContracting := [0]
  lhsBatch := []
  rhsBatch := []
  wf := dot_S8192x1024_S14855x1024_S8192x14855_1_1_0_0_n_n_wf
def scatter_S8192x14855_S8192x512x2_S8192x512_n_01_01_2 : ScatterDims S8192x14855 S8192x512x2 S8192x512 where
  updateWindowDims := []
  insertedWindowDims := [0, 1]
  scatterDimsToOperandDims := [0, 1]
  indexVectorDim := 2
  wf := scatter_S8192x14855_S8192x512x2_S8192x512_n_01_01_2_wf

class Facts : Prop extends Facts₀ where

variable [Facts]
-- ==== Proof.LibAfterAppend.lean ====
/-
  Running two straight lines of host operations one after the other is running their concatenation: the
  buffer contents after `l₁ ++ l₂` from `V` are the contents after `l₂` from the contents after `l₁` from `V`.
  It lets the value a long line leaves in a buffer be computed in pieces: the part of the line that produces an
  intermediate value, then the part that consumes it, each over an arbitrary starting valuation.
-/
import Idealize.ShloMosaic.Lib.StableHlo.Run

namespace Idealize.ShloMosaic.StableHlo

variable {τ : Topo} {sig : RefSig} {Val : EltTy → Type}

/-- The contents after a concatenation are the contents after the second line, started from the contents after
    the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a concatenation has a property when every operation of each part has it. -/
theorem forall_append {p : HloOp τ sig Val → Prop} {l₁ l₂ : List (HloOp τ sig Val)}
    (h₁ : l₁.Forall p) (h₂ : l₂.Forall p) : (l₁ ++ l₂).Forall p :=
  List.forall_iff_forall_mem.2 fun op hop =>
    (List.mem_append.1 hop).elim (List.forall_iff_forall_mem.1 h₁ op) (List.forall_iff_forall_mem.1 h₂ op)

end Idealize.ShloMosaic.StableHlo
-- ==== Proof.HostPrefix.lean ====
/-
  What the region finds in its four input arrays, as functions of the program's arguments.

  Before the region the program rounds the activations to bf16 (no change on the extended reals), pads the weight
  matrix with 505 zero rows and rounds it, pads the bias with 505 zeros and views it as one row, and pads the mask —
  the array that is −∞ everywhere except 0 at the positions the index table names — with 505 columns of −∞. The mask
  is built by the same host operations, on the same index table, as the reference builds its own: it is carried here
  as that one function of the table and never opened.
-/
import proofs.«103514_j58042188038568_1_alg».proof.Proof.Gen.KernelIdeal.Frame
import proofs.«103514_j58042188038568_1_alg».proof.Proof.Gen.ReferenceIdeal.Read
import Idealize.ShloMosaic.Lib.StableHlo.Run
import proofs.«103514_j58042188038568_1_alg».proof.Proof.LibAfterAppend

noncomputable section

namespace Cert.KernelIdeal.Logits

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The activations the region reads are the argument's: rounding to bf16 is the identity on the extended reals. -/
theorem V_act (c : Dev nD) : V m c main_v23 = m ((c : Thread nD τ).loc main_arg0) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The weights the region reads: the argument padded below with 505 rows of the integer 0 converted to a float. -/
theorem V_weight (c : Dev nD) : V m c main_v24
    = pad S15360x1024 ![0, 0] ![505, 0] ![0, 0] (m ((c : Thread nD τ).loc main_arg2))
        (sitofp (F := Ideal) .f32 (constantI S_ 32 0#32)) pads_S14855x1024_S15360x1024_05050_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The bias row the region reads: the argument padded with 505 zeros, viewed as a matrix of one row. -/
theorem V_bias (c : Dev nD) : V m c main_v22
    = shapeCast S1x15360 (pad S15360 ![0] ![505] ![0] (m ((c : Thread nD τ).loc main_arg3))
        (sitofp (F := Ideal) .f32 (constantI S_ 32 0#32)) pads_S14855_S15360_05050 h_S_) shapeCasts_S15360_S1x15360 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The additive mask of an index table, as the program builds it: −∞ everywhere, then 0 scattered to the positions
    `(row, table entry)`, a negative row or entry first wrapped by the axis length. -/
def maskOf (x1 : (⟨S8192x512, .i32⟩ : BufTy).Contents (Elt Ideal)) : (⟨S8192x14855, .f32⟩ : BufTy).Contents (Elt Ideal) :=
  Host.scatter scatter_S8192x14855_S8192x512x2_S8192x512_n_01_01_2 (fun _ b => b)
    (broadcastInDim S8192x14855 ![] bcast_S_S8192x14855 (constant (F := Ideal) S_ .f32 0xFF800000#32))
    (concatenate S8192x512x2 2
      [⟨S8192x512x1, broadcastInDim S8192x512x1 ![0, 1] bcast_S8192x512_S8192x512x1_0_1
          (broadcastInDim S8192x512 ![0, 1] bcast_S8192x1_S8192x512_0_1
            (select (cmpi .slt (broadcastInDim S8192x1 ![0] bcast_S8192_S8192x1_0 (iotaInDim S8192 32 0))
                (broadcastInDim S8192x1 ![] bcast_S_S8192x1 (constantI S_ 32 0#32)))
              (addi (broadcastInDim S8192x1 ![0] bcast_S8192_S8192x1_0 (iotaInDim S8192 32 0))
                (broadcastInDim S8192x1 ![] bcast_S_S8192x1 (constantI S_ 32 8192#32)))
              (broadcastInDim S8192x1 ![0] bcast_S8192_S8192x1_0 (iotaInDim S8192 32 0))))⟩,
       ⟨S8192x512x1, broadcastInDim S8192x512x1 ![0, 1] bcast_S8192x512_S8192x512x1_0_1
          (select (cmpi .slt x1 (broadcastInDim S8192x512 ![] bcast_S_S8192x512 (constantI S_ 32 0#32)))
            (addi x1 (broadcastInDim S8192x512 ![] bcast_S_S8192x512 (constantI S_ 32 14855#32))) x1)⟩]
      concatenates_S8192x512x1_S8192x512x1_S8192x512x2_d2)
    (broadcastInDim S8192x512 ![] bcast_S_S8192x512 (constant (F := Ideal) S_ .f32 0x00000000#32))

/-- It is the reference's mask of the same table: the two programs build it by the same operations. -/
theorem maskOf_eq (x1 : (⟨S8192x512, .i32⟩ : BufTy).Contents (Elt Ideal)) :
    maskOf x1 = Cert.ReferenceIdeal.Read.val_main_v22 (F := Ideal) x1 := by
  unfold maskOf Cert.ReferenceIdeal.Read.val_main_v22 Cert.ReferenceIdeal.Read.val_main_v6 Cert.ReferenceIdeal.Read.val_main_cst
    Cert.ReferenceIdeal.Read.val_main_v20 Cert.ReferenceIdeal.Read.val_main_v18 Cert.ReferenceIdeal.Read.val_main_v17
    Cert.ReferenceIdeal.Read.val_main_v11 Cert.ReferenceIdeal.Read.val_main_v8 Cert.ReferenceIdeal.Read.val_main_v10
    Cert.ReferenceIdeal.Read.val_main_v5 Cert.ReferenceIdeal.Read.val_main_v4 Cert.ReferenceIdeal.Read.val_main_v7
    Cert.ReferenceIdeal.Read.val_main_c Cert.ReferenceIdeal.Read.val_main_v9 Cert.ReferenceIdeal.Read.val_main_c_0
    Cert.ReferenceIdeal.Read.val_main_v19 Cert.ReferenceIdeal.Read.val_main_v16 Cert.ReferenceIdeal.Read.val_main_v13
    Cert.ReferenceIdeal.Read.val_main_v12 Cert.ReferenceIdeal.Read.val_main_c_1 Cert.ReferenceIdeal.Read.val_main_v15
    Cert.ReferenceIdeal.Read.val_main_v14 Cert.ReferenceIdeal.Read.val_main_c_2 Cert.ReferenceIdeal.Read.val_main_v21
    Cert.ReferenceIdeal.Read.val_main_cst_3
  rfl

set_option maxHeartbeats 4000000 in
/-- The first stretch of host operations leaves the mask of the index table in its buffer. -/
theorem mask_stretch (c : Dev nD) :
    StableHlo.after (hostOps0 (F := Ideal)) (fun b => m (c, b)) (Proc.devRef .tc main_v18)
      = maskOf (m ((c : Thread nD τ).loc main_arg1)) := by
  dsimp only [Gen.hostOps0]
  after_results
  rfl

/-- … and −∞ in the buffer of the padding value. -/
theorem fill_stretch (c : Dev nD) :
    StableHlo.after (hostOps0 (F := Ideal)) (fun b => m (c, b)) (Proc.devRef .tc main_cst_4)
      = constant (F := Ideal) S_ .f32 0xFF800000#32 := by
  dsimp only [Gen.hostOps0]
  after_results

/-- The later stretches, from any contents: the mask's padded buffer ends at the pad of the mask's buffer by the
    padding value's buffer. -/
theorem pad_stretch (F1 : Valuation τ sig (Elt Ideal)) :
    StableHlo.after (List.flatten [hostOps0_1, hostOps0_2, hostOps0_3, hostOps0_4, hostOps0_5, hostOps0_6]) F1
        (Proc.devRef .tc main_v19)
      = pad S8192x15360 ![0, 0] ![0, 505] ![0, 0] (F1 (Proc.devRef .tc main_v18)) (F1 (Proc.devRef .tc main_cst_4))
          pads_S8192x14855_S8192x15360_000_05050 h_S_ := by
  simp only [Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The mask the region reads: the mask of the index table, padded on the right with 505 columns of −∞. -/
theorem V_mask (c : Dev nD) : V m c main_v19
    = pad S8192x15360 ![0, 0] ![0, 505] ![0, 0] (maskOf (m ((c : Thread nD τ).loc main_arg1)))
        (constant (F := Ideal) S_ .f32 0xFF800000#32) pads_S8192x14855_S8192x15360_000_05050 h_S_ := by
  dsimp only [Gen.V, Gen.V0]
  rw [List.flatten_cons, StableHlo.after_append, pad_stretch, mask_stretch, fill_stretch]

end Cert.KernelIdeal.Logits

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.Payload.lean ====
/-
  The kernel body's stored value read at an index.

  The body loads an activation block `x0` (1024 rows of the batch, all 1024 features), a weight block `x1` (1024
  vocabulary rows, all 1024 features), a bias row `x2` and a mask block `x3`, and stores
  `(x0 · x1ᵀ + x2) + x3`. Read at `(p, q)` on the extended reals this is
  `(Σ_k x0[p, k] · x1[q, k] + x2[0, q]) + x3[p, q]`: the matrix unit's product into a zero accumulator is the rows'
  inner product, the bias row is repeated down the rows, and the casts of a block to its own shape change nothing.
-/
import proofs.«103514_j58042188038568_1_alg».proof.Proof.Gen.KernelIdeal.Skeleton
import proofs.«103514_j58042188038568_1_alg».proof.Proof.LibMatmulNT
import Idealize.ShloMosaic.Lib.ValueLayout
import Idealize.ShloMosaic.Lib.ValueIdx
import Idealize.ShloMosaic.Lib.Pipeline.Value

noncomputable section

open scoped BigOperators

namespace Cert.KernelIdeal.Logits

open Cert.KernelIdeal Cert.KernelIdeal.Gen Idealize.ShloMosaic Idealize.ShloMosaic.ValueIdx

/-- The stored value at `(p, q)`: the inner product of activation row `p` with weight row `q`, plus the bias at `q`,
    plus the mask at `(p, q)`. -/
theorem pay_apply (x0 : Vec Ideal S1024x1024 .bf16) (x1 : Vec Ideal S1024x1024 .bf16) (x2 : Vec Ideal S1x1024 .f32)
    (x3 : Vec Ideal S1024x1024 .f32) (p q : Fin 1024) :
    k0_pay1 (F := Ideal) x0 x1 x2 x3 (ix2 p q)
      = ((∑ k : Fin 1024, x0 (ix2 p k) * x1 (ix2 q k)) + x2 (ix2 (0 : Fin 1) q)) + x3 (ix2 p q) := by
  unfold k0_pay1
  rw [shapeCast_self x0, shapeCast_self x1, shapeCast_self x2, shapeCast_self x3]
  show (matmul (F := Ideal) dot_S1024x1024_S1024x1024_S1024x1024_1_1_0_0_n_n none x0 x1 (constant (F := Ideal) S1024x1024 .f32 0x00000000#32) (ix2 p q)
      + broadcastTo S1024x1024 x2 broadcasts_S1x1024_S1024x1024 (ix2 p q)) + x3 (ix2 p q) = _
  refine congrArg₂ (· + ·) (congrArg₂ (· + ·) ?_ ?_) rfl
  · exact Cert.Gram.matmul_nt_zero_apply dot_S1024x1024_S1024x1024_S1024x1024_1_1_0_0_n_n_wf none x0 x1 p q
  · exact broadcastTo_1b_ab_apply x2 broadcasts_S1x1024_S1024x1024 p q

end Cert.KernelIdeal.Logits

end
-- ==== Proof.Blocks.lean ====
/-
  From the blocks the grid points write back to the whole padded array.

  The grid has 15 × 8 points. Point `t`, with coordinates (vocabulary tile, batch tile), reads rows
  `1024·(batch tile) …` of the activations, rows `1024·(vocabulary tile) …` of the padded weights, the matching 1024
  entries of the bias row and the matching 1024 × 1024 block of the padded mask, and writes back the block of the same
  position of the output. So what it writes is that block of ONE function of the four arrays,

      padded H Wp Bp Mp (r, v) = (Σ_k H[r, k] · Wp[v, k] + Bp[0, v]) + Mp[r, v],

  and since the 120 blocks tile the [8192, 15360] array, the array ends holding that function.
-/
import proofs.«103514_j58042188038568_1_alg».proof.Proof.Gen.KernelIdeal.Frame
import proofs.«103514_j58042188038568_1_alg».proof.Proof.Payload
import Idealize.ShloMosaic.Lib.Pipeline.Value
import Idealize.ShloMosaic.Lib.ValueIdx

noncomputable section

open scoped BigOperators

namespace Cert.KernelIdeal.Logits

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offs_zero : (![0, 0] : Fin 2 → Nat) = fun _ => 0 := funext fun a => by fin_cases a <;> rfl

/-- The padded logits as one function of the four arrays the region reads. -/
def padded (H : Vec Ideal S8192x1024 .bf16) (Wp : Vec Ideal S15360x1024 .bf16) (Bp : Vec Ideal S1x15360 .f32)
    (Mp : Vec Ideal S8192x15360 .f32) : Vec Ideal S8192x15360 .f32 :=
  fun i => ((∑ k : Fin 1024, H (ix2 (⟨(i 0).val, (i 0).isLt⟩ : Fin 8192) k) * Wp (ix2 (⟨(i 1).val, (i 1).isLt⟩ : Fin 15360) k))
    + Bp (ix2 (0 : Fin 1) (⟨(i 1).val, (i 1).isLt⟩ : Fin 15360))) + Mp i

/-- The block positions of the five windows at a grid point, decided over the 120 points: the activations move with
    the output's rows, the weights and the bias with the output's columns, the mask with both. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) ≤ 7 ∧ win0_4.index t (1 : Fin 2) ≤ 14 :=
  (by decide +kernel : ∀ t : Fin grid0.N, _)

/-- Every block position of the output is some point's. -/
theorem block_onto : ∀ (q0 : Fin 8) (q1 : Fin 15), ∃ t : Fin cfg0.N, win0_4.index t = ![q0.val, q1.val] :=
  (by decide +kernel : ∀ (q0 : Fin 8) (q1 : Fin 15), ∃ t : Fin grid0.N, win0_4.index t = ![q0.val, q1.val])

/-- The activation block at a point is the rows of the activations under the output block's rows. -/
theorem act_block (c : Dev nD) (t : Fin cfg0.N) (p k : Fin 1024) (R : Fin 8192)
    (hR : R.val = win0_4.index t (0 : Fin 2) * 1024 + 1 * p.val) :
    (iblk m c 0 t : Vec Ideal S1024x1024 .bf16) (ix2 p k) = (V m c main_v23 : Vec Ideal S8192x1024 .bf16) (ix2 R k) := by
  obtain ⟨e00, e01, -⟩ := block_indices t
  unfold iblk
  rw [View.read_apply]
  show V m c main_v23 _ = V m c main_v23 _
  refine congrArg (V m c main_v23) (funext fun a => Fin.ext ?_)
  match a with
  | ⟨0, _⟩ => show win0_0.index t (0 : Fin 2) * 1024 + 1 * p.val = R.val; omega
  | ⟨1, _⟩ => show win0_0.index t (1 : Fin 2) * 1024 + 1 * k.val = k.val; omega

/-- The weight block at a point is the rows of the padded weights under the output block's columns. -/
theorem weight_block (c : Dev nD) (t : Fin cfg0.N) (q k : Fin 1024) (C : Fin 15360)
    (hC : C.val = win0_4.index t (1 : Fin 2) * 1024 + 1 * q.val) :
    (iblk m c 1 t : Vec Ideal S1024x1024 .bf16) (ix2 q k) = (V m c main_v24 : Vec Ideal S15360x1024 .bf16) (ix2 C k) := by
  obtain ⟨-, -, e10, e11, -⟩ := block_indices t
  unfold iblk
  rw [View.read_apply]
  show V m c main_v24 _ = V m c main_v24 _
  refine congrArg (V m c main_v24) (funext fun a => Fin.ext ?_)
  match a with
  | ⟨0, _⟩ => show win0_1.index t (0 : Fin 2) * 1024 + 1 * q.val = C.val; omega
  | ⟨1, _⟩ => show win0_1.index t (1 : Fin 2) * 1024 + 1 * k.val = k.val; omega

/-- The bias block at a point is the entries of the bias row under the output block's columns. -/
theorem bias_block (c : Dev nD) (t : Fin cfg0.N) (q : Fin 1024) (C : Fin 15360)
    (hC : C.val = win0_4.index t (1 : Fin 2) * 1024 + 1 * q.val) :
    (iblk m c 2 t : Vec Ideal S1x1024 .f32) (ix2 (0 : Fin 1) q) = (V m c main_v22 : Vec Ideal S1x15360 .f32) (ix2 (0 : Fin 1) C) := by
  obtain ⟨-, -, -, -, e20, e21, -⟩ := block_indices t
  unfold iblk
  rw [View.read_apply]
  show V m c main_v22 _ = V m c main_v22 _
  refine congrArg (V m c main_v22) (funext fun a => Fin.ext ?_)
  match a with
  | ⟨0, _⟩ => show win0_2.index t (0 : Fin 2) * 1 + 1 * 0 = 0; omega
  | ⟨1, _⟩ => show win0_2.index t (1 : Fin 2) * 1024 + 1 * q.val = C.val; omega

/-- The mask block at a point is the padded mask under the output block. -/
theorem mask_block (c : Dev nD) (t : Fin cfg0.N) (p q : Fin 1024) (i : S8192x15360.Idx)
    (hi0 : (i 0).val = win0_4.index t (0 : Fin 2) * 1024 + 1 * p.val) (hi1 : (i 1).val = win0_4.index t (1 : Fin 2) * 1024 + 1 * q.val) :
    (iblk m c 3 t : Vec Ideal S1024x1024 .f32) (ix2 p q) = (V m c main_v19 : Vec Ideal S8192x15360 .f32) i := by
  obtain ⟨-, -, -, -, -, -, e30, e31, -⟩ := block_indices t
  unfold iblk
  rw [View.read_apply]
  show V m c main_v19 _ = V m c main_v19 _
  refine congrArg (V m c main_v19) (funext fun a => Fin.ext ?_)
  match a with
  | ⟨0, _⟩ => show win0_3.index t (0 : Fin 2) * 1024 + 1 * p.val = (i 0).val; omega
  | ⟨1, _⟩ => show win0_3.index t (1 : Fin 2) * 1024 + 1 * q.val = (i 1).val; omega

/-- What point `t` writes back is block `t` of the padded logits of the arrays as the region finds them. -/
theorem flushed_eq (c : Dev nD) (t : Fin cfg0.N) :
    (dats m 0 c).flushed 4 t = ((cfg0.win 4).blk t).view.read (Elt Ideal)
      (padded (V m c main_v23) (V m c main_v24) (V m c main_v22) (V m c main_v19)) := by
  show (cfg0.win 4).cut (grid0.coords t) ((dats m 0 c).after 4 t) = _
  rw [after0_4]
  unfold out0_4
  rw [View.canon_unit_zero offs_zero]
  simp only [View.ld_unit_zero (S := S1024x1024) offs_zero, View.ld_unit_zero (S := S1x1024) offs_zero]
  refine funext fun (j : S1024x1024.Idx) => ?_
  obtain ⟨p, q, rfl⟩ : ∃ (p q : Fin 1024), j = ix2 p q := ⟨j 0, j 1, eq_ix2 j⟩
  show k0_pay1 (iblk m c 0 t) (iblk m c 1 t) (iblk m c 2 t) (iblk m c 3 t) (ix2 p q)
    = padded (V m c main_v23) (V m c main_v24) (V m c main_v22) (V m c main_v19) (((cfg0.win 4).blk t).view.emb (ix2 p q))
  refine (pay_apply (iblk m c 0 t) (iblk m c 1 t) (iblk m c 2 t) (iblk m c 3 t) p q).trans ?_
  unfold padded
  refine congrArg₂ (· + ·) (congrArg₂ (· + ·) (Finset.sum_congr rfl fun k _ => congrArg₂ (· * ·) ?_ ?_) ?_) ?_
  · exact act_block m c t _ k _ rfl
  · exact weight_block m c t _ k _ rfl
  · exact bias_block m c t _ _ rfl
  · exact mask_block m c t _ _ _ rfl rfl

/-- An index of the array is in point `t`'s block iff each coordinate is in the block's range on its axis. -/
theorem mem_blk (t : Fin cfg0.N) (i : S8192x15360.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v25).slice (win0_4.rect t)).set ↔ _
  rw [View.set_slice_whole, Rect.mem_set_unit]
  exact Iff.rfl

/-- Every index of the padded array lies in some point's block: the 8 × 15 blocks of 1024 × 1024 tile it. -/
theorem covered (i : S8192x15360.Idx) :
    ∃ t : Fin cfg0.N, (cfg0.win 4).flush t = true ∧ i ∈ ((cfg0.win 4).blk t).view.set := by
  have hi0 : (i 0).val < 8192 := (i 0).isLt
  have hi1 : (i 1).val < 15360 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The output array after the region: the padded logits of the arrays the region read. -/
theorem final (c : Dev nD) : (dats m 0 c).arrAt 4 cfg0.N
    = padded (V m c main_v23) (V m c main_v24) (V m c main_v22) (V m c main_v19) :=
  (dats m 0 c).arrAt_eq_of_cover 4 _ (fun t _ => flushed_eq m c t) covered

end Cert.KernelIdeal.Logits

end
-- ==== Proof.Spec.lean ====
/-
  The result both programs compute, as one function of the arguments.

  For activations `h` (8192 × 1024), weights `W` (14855 × 1024), a bias `b` (14855) and an additive mask `M`
  (8192 × 14855, entries 0 or −∞) the policy head's masked logits are, on the extended reals,

      logits h W b M (r, v) = (Σ_k h[r, k] · W[v, k] + b[v]) + M[r, v].
-/
import Idealize.ShloMosaic.PureOps.Ideal
import Idealize.ShloMosaic.Lib.ValueIdx

noncomputable section

open scoped BigOperators

namespace Cert.Logits

open Idealize.ShloMosaic Idealize.ShloMosaic.ValueIdx

/-- The masked logits at an index: row `r` of the activations against row `v` of the weights, plus the bias at `v`,
    plus the mask at `(r, v)`. -/
def logits (h : (⟨2, ![8192, 1024]⟩ : Shape).Idx → EReal) (W : (⟨2, ![14855, 1024]⟩ : Shape).Idx → EReal)
    (b : (⟨1, ![14855]⟩ : Shape).Idx → EReal) (M : (⟨2, ![8192, 14855]⟩ : Shape).Idx → EReal) :
    (⟨2, ![8192, 14855]⟩ : Shape).Idx → EReal :=
  fun i => ((∑ k : Fin 1024, h (ix2 (⟨(i 0).val, (i 0).isLt⟩ : Fin 8192) k) * W (ix2 (⟨(i 1).val, (i 1).isLt⟩ : Fin 14855) k))
    + b (ix1 (⟨(i 1).val, (i 1).isLt⟩ : Fin 14855))) + M i

end Cert.Logits

end
-- ==== Proof.Tail.lean ====
/-
  The program's result from the padded array.

  After the region the program keeps the first 14855 columns of the [8192, 15360] array. On those columns the padded
  weights are the weights, the padded bias the bias and the padded mask the mask, so the kept part is the masked logits
  of the arguments; the zero rows, the zero bias entries and the −∞ columns of the padding are never read.
-/
import proofs.«103514_j58042188038568_1_alg».proof.Proof.HostPrefix
import proofs.«103514_j58042188038568_1_alg».proof.Proof.Blocks
import proofs.«103514_j58042188038568_1_alg».proof.Proof.Spec
import Idealize.ShloMosaic.Lib.KernelVsHost
import Idealize.ShloMosaic.Lib.Pipeline.Value
import Idealize.ShloMosaic.Lib.ValueIdx

noncomputable section

open scoped BigOperators

namespace Cert.KernelIdeal.Logits

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first 14855 columns of the padded logits of the arrays the region read are the masked logits of the arguments. -/
theorem sliced_eq (c : Dev nD) :
    extractStridedSlice S8192x14855 ![0, 0]
        (padded (V m c main_v23) (V m c main_v24) (V m c main_v22) (V m c main_v19)) slices_S8192x15360_S8192x14855_0_0
      = Cert.Logits.logits (m ((c : Thread nD τ).loc main_arg0)) (m ((c : Thread nD τ).loc main_arg2))
          (m ((c : Thread nD τ).loc main_arg3)) (maskOf (m ((c : Thread nD τ).loc main_arg1))) := by
  rw [V_act, V_weight, V_bias, V_mask]
  funext i
  have hi0 : (i 0).val < 8192 := (i 0).isLt
  have hi1 : (i 1).val < 14855 := (i 1).isLt
  have hc : (i 1).val < 15360 := by omega
  refine (extractStridedSlice_apply _ _ _ i (ix2 (⟨(i 0).val, hi0⟩ : Fin 8192) (⟨(i 1).val, hc⟩ : Fin 15360)) fun a => ?_).trans ?_
  · match a with
    | ⟨0, _⟩ => show (i 0).val = 0 + (i 0).val; omega
    | ⟨1, _⟩ => show (i 1).val = 0 + (i 1).val; omega
  unfold padded Cert.Logits.logits
  refine congrArg₂ (· + ·) (congrArg₂ (· + ·) (Finset.sum_congr rfl fun k _ => congrArg₂ (· * ·) rfl ?_) ?_) ?_
  · refine pad_apply_of_inside _ _ _ _ _ _ _ _ (ix2 (⟨(i 1).val, hi1⟩ : Fin 14855) k) fun a => ?_
    match a with
    | ⟨0, _⟩ => show (i 1).val = 0 + (i 1).val * (0 + 1); omega
    | ⟨1, _⟩ => show k.val = 0 + k.val * (0 + 1); omega
  · refine (shapeCast_apply _ _ _ (ix1 (⟨(i 1).val, hc⟩ : Fin 15360)) ?_).trans ?_
    · rw [Shape.rowMajor_val_one, Shape.rowMajor_val_two]
      show (i 1).val = 0 * 15360 + (i 1).val
      omega
    refine pad_apply_of_inside _ _ _ _ _ _ _ _ (ix1 (⟨(i 1).val, hi1⟩ : Fin 14855)) fun a => ?_
    match a with
    | ⟨0, _⟩ => show (i 1).val = 0 + (i 1).val * (0 + 1); omega
  · refine pad_apply_of_inside _ _ _ _ _ _ _ _ i fun a => ?_
    match a with
    | ⟨0, _⟩ => show (i 0).val = 0 + (i 0).val * (0 + 1); omega
    | ⟨1, _⟩ => show (i 1).val = 0 + (i 1).val * (0 + 1); omega

end Cert.KernelIdeal.Logits

end
-- ==== Proof.KernelRun.lean ====
/-
  The idealized kernel's run, read: the result array ends at the masked logits of the arguments.

  The run leaves the region's output array at the padded logits (the blocks the grid points wrote back tile it), and the
  one host line after the region keeps its first 14855 columns; the arguments end as they were launched.
-/
import proofs.«103514_j58042188038568_1_alg».proof.Proof.Tail
import Idealize.ShloMosaic.Lib.StableHlo.Run

noncomputable section

namespace Cert.KernelIdeal.Logits

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The result buffer after the host line that follows the region: the first 14855 columns of the region's output
    array as the region left it. -/
theorem tail_eq (c : Dev nD) :
    Pipeline.afterTail₀ cfgs (dats m) 0 (V0 m) [hostOps1] c main_v26
      = extractStridedSlice S8192x14855 ![0, 0] ((dats m 0 c).arrAt 4 cfg0.N) slices_S8192x15360_S8192x14855_0_0 := by
  unfold Pipeline.afterTail₀
  show StableHlo.after hostOps1 _ (Proc.devRef .tc main_v26) = _
  after_results
  exact congrArg (fun x => extractStridedSlice S8192x14855 ![0, 0] x slices_S8192x15360_S8192x14855_0_0)
    (Pipeline.withArrays_arr spec0 launch0.win.arr_inj c _ _ 4)

/-- Every weakly fair execution of the idealized kernel's program terminates with the result at the masked logits of
    the arguments and the arguments unchanged. -/
theorem run : θ_run defs (onTc (τ := τ) (main (F := Ideal))) ⟨m, fun _ => 0, ρ⟩ fun r => ∀ c : Dev nD,
      r.2.mem ((c.tc : Thread nD τ).loc main_v26)
        = Cert.Logits.logits (m ((c.tc : Thread nD τ).loc main_arg0)) (m ((c.tc : Thread nD τ).loc main_arg2))
            (m ((c.tc : Thread nD τ).loc main_arg3)) (maskOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v26 (Pipeline.mem_restRefs_of main_v26 (by decide) (by decide))).trans
        (by rw [tail_eq, final, sliced_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Logits

end
-- ==== Proof.RefValue.lean ====
/-
  The reference computes the masked logits.

  Its program is a product of the activations with the transposed weights, the bias added along the rows, and the
  mask — built from the index table by a scatter — added on top. Read at an index, the product is the sum over the
  1024 features, the broadcast bias is the bias at the column, and the mask is kept as the one function of the index
  table it is.
-/
import proofs.«103514_j58042188038568_1_alg».proof.Proof.Gen.ReferenceIdeal.Read
import proofs.«103514_j58042188038568_1_alg».proof.Proof.Spec

noncomputable section

open scoped BigOperators

namespace Cert.ReferenceIdeal.RefValue

open Cert.ReferenceIdeal Cert.ReferenceIdeal.Read Idealize.ShloMosaic Idealize.ShloMosaic.ValueIdx

/-- The reference's result is the masked logits of its arguments, with its own mask of the index table. -/
theorem result_eq (x0 : (⟨S8192x1024, .f32⟩ : BufTy).Contents (Elt Ideal)) (x1 : (⟨S8192x512, .i32⟩ : BufTy).Contents (Elt Ideal))
    (x2 : (⟨S14855x1024, .f32⟩ : BufTy).Contents (Elt Ideal)) (x3 : (⟨S14855, .f32⟩ : BufTy).Contents (Elt Ideal)) :
    val_main_v23 (F := Ideal) x0 x1 x2 x3 = Cert.Logits.logits x0 x2 x3 (val_main_v22 (F := Ideal) x1) := by
  funext i
  have el : ∀ k : Fin 1024, lidx_main_v0 i k = ix2 (⟨(i 0).val, (i 0).isLt⟩ : Fin 8192) k := fun k =>
    funext fun a => by match a with | ⟨0, _⟩ => rfl | ⟨1, _⟩ => rfl
  have er : ∀ k : Fin 1024, ridx_main_v0 i k = ix2 (⟨(i 1).val, (i 1).isLt⟩ : Fin 14855) k := fun k =>
    funext fun a => by match a with | ⟨0, _⟩ => rfl | ⟨1, _⟩ => rfl
  have eb : idx_main_v1 (idx_main_v2 i) = ix1 (⟨(i 1).val, (i 1).isLt⟩ : Fin 14855) :=
    funext fun a => by match a with | ⟨0, _⟩ => rfl
  rw [val_main_v23_apply, val_main_v3_apply, val_main_v0_apply, val_main_v2_apply, val_main_v1_apply]
  simp only [el, er, eb, Ideal.addf_def]
  rfl

end Cert.ReferenceIdeal.RefValue

end
-- ==== Proof.lean ====
/- The proof of `Cert.Claim` for the policy head's masked logits.

   The kernel computes, tile by tile on a 15 × 8 grid, `h · Wᵀ + b + M` over a vocabulary padded from 14855 to 15360
   columns, and keeps the first 14855 columns; the reference computes `(h · Wᵀ + b) + M` directly. `M` is the additive
   mask, −∞ except 0 at the positions the index table names, which both programs build from the table by the same host
   operations. On the extended reals both results are, at `(r, v)`,

       (Σ_k h[r, k] · W[v, k] + b[v]) + M[r, v]

   (`Cert.Logits.logits`): rounding the operands to bf16 is the identity there, a tile of the product is the rows' inner
   products, the tiles cover the padded array, and the padding is never read in the kept columns. No law of arithmetic
   beyond this reading is used, so the precondition is never opened. The three frames are the generated frame runs;
   the idealization rewrote nothing, so `preserves` is trivial. -/
import proofs.«103514_j58042188038568_1_alg».proof.Defs
import proofs.«103514_j58042188038568_1_alg».proof.Proof.Gen.Kernel
import proofs.«103514_j58042188038568_1_alg».proof.Proof.Gen.Kernel.Skeleton
import proofs.«103514_j58042188038568_1_alg».proof.Proof.Gen.Kernel.Launch
import proofs.«103514_j58042188038568_1_alg».proof.Proof.Gen.Kernel.Points
import proofs.«103514_j58042188038568_1_alg».proof.Proof.Gen.Kernel.Frame
import proofs.«103514_j58042188038568_1_alg».proof.Proof.Gen.KernelIdeal
import proofs.«103514_j58042188038568_1_alg».proof.Proof.Gen.KernelIdeal.Skeleton
import proofs.«103514_j58042188038568_1_alg».proof.Proof.Gen.KernelIdeal.Launch
import proofs.«103514_j58042188038568_1_alg».proof.Proof.Gen.KernelIdeal.Points
import proofs.«103514_j58042188038568_1_alg».proof.Proof.Gen.KernelIdeal.Frame
import proofs.«103514_j58042188038568_1_alg».proof.Proof.Gen.ReferenceIdeal
import proofs.«103514_j58042188038568_1_alg».proof.Proof.Gen.ReferenceIdeal.Run
import proofs.«103514_j58042188038568_1_alg».proof.Proof.Gen.ReferenceIdeal.Read
import proofs.«103514_j58042188038568_1_alg».proof.Proof.Gen.Pre_finite_inputs
import proofs.«103514_j58042188038568_1_alg».proof.Proof.KernelRun
import proofs.«103514_j58042188038568_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the masked logits of those arguments: the kernel
    by its tiles and the kept columns, the reference by reading its operations at an index, the two masks one function
    of the index table. -/
theorem algebraic : Cert.algebraic_KernelIdeal_ReferenceIdeal := by
  intro m ρ m' ρ' _ hagree
  refine ⟨_, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1,
    (hagree c).2.2.1, (hagree c).2.2.2, Cert.KernelIdeal.Logits.maskOf_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
